-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : FVec F S256x128 .f32) (main_arg2 : FVec F S128 .f32) (main_arg3 : FVec F S128x128 .f32) (main_arg4 : FVec F S128 .f32) (main_arg5 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 88
  | .vmem => 24
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x1600000, .i32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S100000, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S_, .f32⟩
  | .hbm, ⟨21, _⟩ => ⟨S1600000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x1, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S1600000x1, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S100000x1, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128x128, .f32⟩
  | 4 => ⟨S128, .f32⟩
  | 5 => ⟨S2x1600000, .i32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S100000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S_, .f32⟩
  | 22 => ⟨S1600000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .f32⟩
  | 73 => ⟨S100000, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S_, .f32⟩
  | 83 => ⟨S1600000, .f32⟩
  | 84 => ⟨S100000, .f32⟩
  | 85 => ⟨S100000, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000, .f32⟩
  | 104 => ⟨S1600000, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S1600000x1, .f32⟩
  | 115 => ⟨S1600000x128, .f32⟩
  | 116 => ⟨S1600000x128, .f32⟩
  | 117 => ⟨S_, .f32⟩
  | 118 => ⟨S100000x128, .f32⟩
  | 119 => ⟨S1600000x1, .i32⟩
  | 120 => ⟨S100000x128, .f32⟩
  | 121 => ⟨S100000, .f32⟩
  | 122 => ⟨S100000x1, .f32⟩
  | 123 => ⟨S100000x128, .f32⟩
  | 124 => ⟨S100000x128, .f32⟩
  | 125 => ⟨S100000x128, .f32⟩
  | 126 => ⟨S1x128, .f32⟩
  | 127 => ⟨S100000x128, .f32⟩
  | _ => ⟨S100000x256, .f32⟩

abbrev hbmTy0_1 (i : Nat) : BufTy := match i % 128 with
  | 0 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_c_10 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_c_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_15 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_17 : Ref sig .tc := ⟨.hbm, 105, rfl⟩
abbrev main_v78 : Ref sig .tc := ⟨.hbm, 106, rfl⟩
abbrev main_v79 : Ref sig .tc := ⟨.hbm, 107, rfl⟩
abbrev main_c_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  The function both programs compute: two graph-convolution layers over an edge list.

  For node features `h : [N, C]` (N = 100000 nodes, C = 128 channels) and an edge list `e : [2, E]` (E = 1600000; row 0 the
  source node of each edge, row 1 its target), one layer is

      layer h b e  =  (agg h e + h · dinv² ) + b

  where `deg` counts, for each node, one (its self loop) plus the edges that point at it; `dinv = deg^(-1/2)`;
  `edgeWeight` gives each edge the weight `dinv[source] · dinv[target]`; and `agg h e` adds, into each target node's row, the
  source node's row of `h` times the edge's weight. A negative node number `i` stands for `i + N` wherever a row is
  looked up (`wrapCol`); the scatter takes the target numbers as they are. The whole function is

      G x W₁ b₁ W₂ b₂ e  =  layer ((max (layer (x · W₁) b₁ e) 0) · W₂) b₂ e .

  Every gather and scatter-add is kept as the host operation it is: nothing below looks inside one. The definitions are
  stated for any interpretation `F` of the floats.
-/
import proofs.«113286_j54803782697391_1_alg».proof.Proof.Gen.ReferenceIdeal
import Idealize.ShloMosaic.PureOps.Ideal

noncomputable section

namespace Cert.GcnSpec

open Cert.ReferenceIdeal Cert.ReferenceIdeal.Gen Idealize.ShloMosaic Idealize.ShloMosaic.TcCoe Idealize.SL.Sem

variable {F : FTy → Type} [FloatOps F]

/-- Row 0 of the edge list as a vector: the source node of each edge. -/
def srcIdx (e : (⟨S2x1600000, .i32⟩ : BufTy).Contents (Elt F)) : (⟨S1600000, .i32⟩ : BufTy).Contents (Elt F) :=
  shapeCast _ (extractStridedSlice S1x1600000 ![0, 0] (e) slices_S2x1600000_S1x1600000_0_0) shapeCasts_S1x1600000_S1600000

/-- Row 1 of the edge list as a vector: the target node of each edge. -/
def dstIdx (e : (⟨S2x1600000, .i32⟩ : BufTy).Contents (Elt F)) : (⟨S1600000, .i32⟩ : BufTy).Contents (Elt F) :=
  shapeCast _ (extractStridedSlice S1x1600000 ![1, 0] (e) slices_S2x1600000_S1x1600000_1_0) shapeCasts_S1x1600000_S1600000

/-- Node numbers as a column of lookup positions: a negative number `i` is replaced by `i + 100000`. -/
def wrapCol (ix : (⟨S1600000, .i32⟩ : BufTy).Contents (Elt F)) : (⟨S1600000x1, .i32⟩ : BufTy).Contents (Elt F) :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 100000#32))) ix)

/-- Each node's degree: one, plus one for every edge whose target it is. -/
def deg (e : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x3F800000#32))
    (wrapCol (dstIdx e))
    (broadcastInDim S1600000 ![] bcast_S_S1600000 (constant S_ .f32 0x3F800000#32))

/-- The inverse square root of the degree. -/
def dinv (e : (⟨S2x1600000, .i32⟩ : BufTy).Contents (Elt F)) : (⟨S100000, .f32⟩ : BufTy).Contents (Elt F) :=
  Host.rsqrt (deg e)

/-- Each edge's weight: `dinv` at its source times `dinv` at its target. -/
def edgeWeight (e : (⟨S2x1600000, .i32⟩ : BufTy).Contents (Elt F)) : (⟨S1600000, .f32⟩ : BufTy).Contents (Elt F) :=
  mulf (Host.gather gather_S100000_S1600000x1_S1600000_n_0_n_n_0_1_1 (dinv e) (wrapCol (srcIdx e)))
    (Host.gather gather_S100000_S1600000x1_S1600000_n_0_n_n_0_1_1 (dinv e) (wrapCol (dstIdx e)))

/-- The edge aggregate: into each target node's row, the sum over its incoming edges of the source node's row of `h`
    times the edge's weight. -/
def agg (h : (⟨S100000x128, .f32⟩ : BufTy).Contents (Elt F)) (e : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstIdx e))
    (mulf (Host.gather gather_S100000x128_S1600000x1_S1600000x128_1_0_n_n_0_1_1128 h (wrapCol (srcIdx e)))
      (broadcastInDim S1600000x128 ![0, 1] bcast_S1600000x1_S1600000x128_0_1
        (broadcastInDim S1600000x1 ![0] bcast_S1600000_S1600000x1_0 (edgeWeight e))))

/-- The square of `dinv`, one value per node. -/
def dinvSq (e : (⟨S2x1600000, .i32⟩ : BufTy).Contents (Elt F)) : (⟨S100000, .f32⟩ : BufTy).Contents (Elt F) :=
  mulf (dinv e) (dinv e)

/-- A value per node repeated along the channels. -/
def perNode (d : (⟨S100000, .f32⟩ : BufTy).Contents (Elt F)) : (⟨S100000x128, .f32⟩ : BufTy).Contents (Elt F) :=
  broadcastInDim S100000x128 ![0, 1] bcast_S100000x1_S100000x128_0_1
    (broadcastInDim S100000x1 ![0] bcast_S100000_S100000x1_0 d)

/-- The self-loop term: each node's own row of `h` times `dinv²`. -/
def selfTerm (h : (⟨S100000x128, .f32⟩ : BufTy).Contents (Elt F)) (e : (⟨S2x1600000, .i32⟩ : BufTy).Contents (Elt F)) :
    (⟨S100000x128, .f32⟩ : BufTy).Contents (Elt F) :=
  mulf h (perNode (dinvSq e))

/-- A one-row matrix repeated on every node. -/
def rowOnNodes (b : (⟨S1x128, .f32⟩ : BufTy).Contents (Elt F)) : (⟨S100000x128, .f32⟩ : BufTy).Contents (Elt F) :=
  broadcastInDim S100000x128 ![0, 1] bcast_S1x128_S100000x128_0_1 b

/-- The bias, a value per channel, as a one-row matrix. -/
def biasRow (b : (⟨S128, .f32⟩ : BufTy).Contents (Elt F)) : (⟨S1x128, .f32⟩ : BufTy).Contents (Elt F) :=
  broadcastInDim S1x128 ![1] bcast_S128_S1x128_1 b

/-- The sum a layer ends with, of three matrices the last of which is one row: `(a + s) + r` on every node. -/
def combine (a s : (⟨S100000x128, .f32⟩ : BufTy).Contents (Elt F)) (r : (⟨S1x128, .f32⟩ : BufTy).Contents (Elt F)) :
    (⟨S100000x128, .f32⟩ : BufTy).Contents (Elt F) :=
  addf (addf a s) (rowOnNodes r)

/-- One layer: the edge aggregate plus the self-loop term plus the bias. -/
def layer (h : (⟨S100000x128, .f32⟩ : BufTy).Contents (Elt F)) (b : (⟨S128, .f32⟩ : BufTy).Contents (Elt F))
    (e : (⟨S2x1600000, .i32⟩ : BufTy).Contents (Elt F)) : (⟨S100000x128, .f32⟩ : BufTy).Contents (Elt F) :=
  combine (agg h e) (selfTerm h e) (biasRow b)

/-- The positive part, entry by entry. -/
def relu (v : (⟨S100000x128, .f32⟩ : BufTy).Contents (Elt F)) : (⟨S100000x128, .f32⟩ : BufTy).Contents (Elt F) :=
  maximumf v (broadcastInDim S100000x128 ![] bcast_S_S100000x128 (constant S_ .f32 0x00000000#32))

/-- The first layer's projection `x · W₁`. -/
def proj1 (x : (⟨S100000x256, .f32⟩ : BufTy).Contents (Elt F)) (w : (⟨S256x128, .f32⟩ : BufTy).Contents (Elt F)) :
    (⟨S100000x128, .f32⟩ : BufTy).Contents (Elt F) :=
  Host.dotGeneral dot_S100000x256_S256x128_S100000x128_1_0_0_1_n_n none x w

/-- The second layer's projection `h · W₂`. -/
def proj2 (h : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none h w

/-- The two layers, the first followed by the positive part. -/
def G (x : (⟨S100000x256, .f32⟩ : BufTy).Contents (Elt F)) (w1 : (⟨S256x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) (e : (⟨S2x1600000, .i32⟩ : BufTy).Contents (Elt F)) :
    (⟨S100000x128, .f32⟩ : BufTy).Contents (Elt F) :=
  layer (proj2 (relu (layer (proj1 x w1) b1 e)) w2) b2 e

end Cert.GcnSpec

end
-- ==== Proof.RefIsG.lean ====
/-
  The reference computes `G`. Its program applies the two layers operation by operation — computing the degree, its inverse
  square root and the edge weights once per layer, from the same edge list both times —, and each stage of it is, read as a
  function of the arguments, the corresponding piece of `G`: the same operations of the same operands, so every equation
  here holds by unfolding the two sides' definitions.
-/
import proofs.«113286_j54803782697391_1_alg».proof.Proof.Spec
import proofs.«113286_j54803782697391_1_alg».proof.Proof.Gen.ReferenceIdeal.Read

noncomputable section

namespace Cert.GcnRef

open Cert.ReferenceIdeal Cert.ReferenceIdeal.Read Cert.GcnSpec Idealize.ShloMosaic Idealize.ShloMosaic.TcCoe Idealize.SL.Sem

variable {F : FTy → Type} [FloatOps F]

/-- The source and the target row of the edge list. -/
theorem src_eq (e : (⟨S2x1600000, .i32⟩ : BufTy).Contents (Elt F)) : val_main_v1 (F := F) e = srcIdx e := rfl
theorem dst_eq (e : (⟨S2x1600000, .i32⟩ : BufTy).Contents (Elt F)) : val_main_v3 (F := F) e = dstIdx e := rfl

/-- The inverse square root of the degree, as the first and as the second layer compute it. -/
theorem dinv_first (e : (⟨S2x1600000, .i32⟩ : BufTy).Contents (Elt F)) : val_main_v14 (F := F) e = dinv e := rfl
theorem dinv_second (e : (⟨S2x1600000, .i32⟩ : BufTy).Contents (Elt F)) : val_main_v62 (F := F) e = dinv e := rfl

/-- The edge weights, as the first and as the second layer compute them. -/
theorem weight_first (e : (⟨S2x1600000, .i32⟩ : BufTy).Contents (Elt F)) : val_main_v29 (F := F) e = edgeWeight e := by
  unfold val_main_v29 val_main_v21 val_main_v28 edgeWeight
  rw [dinv_first]; rfl
theorem weight_second (e : (⟨S2x1600000, .i32⟩ : BufTy).Contents (Elt F)) : val_main_v77 (F := F) e = edgeWeight e := by
  unfold val_main_v77 val_main_v69 val_main_v76 edgeWeight
  rw [dinv_second]; rfl

/-- The first layer before its positive part. -/
theorem layer_first (x0 : (⟨S100000x256, .f32⟩ : BufTy).Contents (Elt F)) (x1 : (⟨S256x128, .f32⟩ : BufTy).Contents (Elt F)) (x2 : (⟨S128, .f32⟩ : BufTy).Contents (Elt F))
    (e : (⟨S2x1600000, .i32⟩ : BufTy).Contents (Elt F)) : val_main_v50 (F := F) x0 x1 x2 e = layer (proj1 x0 x1) x2 e := by
  unfold val_main_v50 val_main_v47 val_main_v42 val_main_v46 val_main_v39 val_main_v38 val_main_v37 val_main_v36 val_main_v45 val_main_v44
    val_main_v43 val_main_v49 val_main_v48 layer combine agg selfTerm perNode dinvSq rowOnNodes biasRow
  rw [weight_first, dinv_first]; rfl

/-- The second layer's input: the positive part of the first layer, projected. -/
theorem hidden (x0 : (⟨S100000x256, .f32⟩ : BufTy).Contents (Elt F)) (x1 : (⟨S256x128, .f32⟩ : BufTy).Contents (Elt F)) (x2 : (⟨S128, .f32⟩ : BufTy).Contents (Elt F))
    (x3 : (⟨S128x128, .f32⟩ : BufTy).Contents (Elt F)) (e : (⟨S2x1600000, .i32⟩ : BufTy).Contents (Elt F)) :
    val_main_v52 (F := F) x0 x1 x2 x3 e = proj2 (relu (layer (proj1 x0 x1) x2 e)) x3 := by
  unfold val_main_v52 val_main_v51
  rw [layer_first]; rfl

/-- The reference's result is `G` of its arguments. -/
theorem result (x0 : (⟨S100000x256, .f32⟩ : BufTy).Contents (Elt F)) (x1 : (⟨S256x128, .f32⟩ : BufTy).Contents (Elt F)) (x2 : (⟨S128, .f32⟩ : BufTy).Contents (Elt F))
    (x3 : (⟨S128x128, .f32⟩ : BufTy).Contents (Elt F)) (x4 : (⟨S128, .f32⟩ : BufTy).Contents (Elt F)) (e : (⟨S2x1600000, .i32⟩ : BufTy).Contents (Elt F)) :
    val_main_v98 (F := F) x0 x1 x2 x3 x4 e = G x0 x1 x2 x3 x4 e := by
  unfold val_main_v98 val_main_v95 val_main_v90 val_main_v94 val_main_v87 val_main_v86 val_main_v85 val_main_v84 val_main_v93 val_main_v92
    val_main_v91 val_main_v97 val_main_v96 G
  rw [hidden, weight_second, dinv_second]
  unfold layer combine agg selfTerm perNode dinvSq rowOnNodes biasRow
  rfl

end Cert.GcnRef

end
-- ==== Proof.KernelRun.lean ====
/-
  The idealized kernel's run with its result named. The program is seven segments — host operations, the first projection,
  host operations, the first combine, the second projection, host operations, the second combine —, and the launch over those
  segments ends with every buffer that outlives the run at the contents the segments' fold `W7` gives it. Read there, the
  result buffer holds `W7` at the result, and each argument what it held at launch.
-/
import proofs.«113286_j54803782697391_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the idealized kernel terminates without a fault, the result buffer at the fold's
    contents and the arguments as launched. -/
theorem run : θ_run defs (onTc (τ := τ) (main (F := F))) ⟨m, fun _ => 0, ρ⟩ (fun r => ∀ c : Dev nD,
      r.2.mem ((c.tc : Thread nD τ).loc main_v67) = W7 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v67 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.HostEntry.lean ====
/-
  The kernel program's first stretch of host operations, before any region: from the edge list alone it computes the source
  and the target row as vectors, the degree, its inverse square root `dinv`, `dinv²`, and each edge's weight — the same
  operations, in the same order, as the specification's `srcIdx`, `dstIdx`, `dinvSq` and `edgeWeight`. Read off any
  contents `W` of the buffers before the stretch, each of these buffers holds the specification's term of the edge list in
  `W`; and the stretch writes none of the six arguments.
-/
import proofs.«113286_j54803782697391_1_alg».proof.Proof.Spec
import proofs.«113286_j54803782697391_1_alg».proof.Proof.Gen.KernelIdeal.Launch
import Idealize.ShloMosaic.Lib.StableHlo.Run

noncomputable section

namespace Cert.KernelIdeal.HostEntry

open Cert.KernelIdeal Cert.KernelIdeal.Gen Idealize.ShloMosaic Idealize.ShloMosaic.TcCoe Idealize.SL.Sem Idealize.ShloMosaic.StableHlo
open Cert.GcnSpec

variable {F : FTy → Type} [FloatOps F]

/-- After the first stretch the source-row buffer holds the edge list's row 0 as a vector. -/
theorem src (W : Valuation τ sig (Elt F)) (e : (⟨Cert.ReferenceIdeal.S2x1600000, .i32⟩ : BufTy).Contents (Elt F)) (he : W (Proc.devRef .tc main_arg5) = e) :
    StableHlo.after (hostOps0 (F := F)) W (Proc.devRef .tc main_v1) = srcIdx e := by
  after_results_simp
  rw [he]; rfl

/-- … the target-row buffer its row 1. -/
theorem dst (W : Valuation τ sig (Elt F)) (e : (⟨Cert.ReferenceIdeal.S2x1600000, .i32⟩ : BufTy).Contents (Elt F)) (he : W (Proc.devRef .tc main_arg5) = e) :
    StableHlo.after (hostOps0 (F := F)) W (Proc.devRef .tc main_v3) = dstIdx e := by
  after_results_simp
  rw [he]; rfl

/-- … the buffer of `dinv · dinv` the squared inverse square root of the degree. -/
theorem dinvSq (W : Valuation τ sig (Elt F)) (e : (⟨Cert.ReferenceIdeal.S2x1600000, .i32⟩ : BufTy).Contents (Elt F)) (he : W (Proc.devRef .tc main_arg5) = e) :
    StableHlo.after (hostOps0 (F := F)) W (Proc.devRef .tc main_v14) = Cert.GcnSpec.dinvSq e := by
  after_results_simp
  rw [he]; rfl

/-- … and the edge-weight buffer `dinv[source] · dinv[target]` of every edge. -/
theorem weight (W : Valuation τ sig (Elt F)) (e : (⟨Cert.ReferenceIdeal.S2x1600000, .i32⟩ : BufTy).Contents (Elt F)) (he : W (Proc.devRef .tc main_arg5) = e) :
    StableHlo.after (hostOps0 (F := F)) W (Proc.devRef .tc main_v29) = edgeWeight e := by
  after_results_simp
  rw [he]; rfl

/-- The first stretch writes no argument. -/
theorem keeps_arg0 (W : Valuation τ sig (Elt F)) :
    StableHlo.after (hostOps0 (F := F)) W (Proc.devRef .tc main_arg0) = W (Proc.devRef .tc main_arg0) := by after_results_simp
theorem keeps_arg1 (W : Valuation τ sig (Elt F)) :
    StableHlo.after (hostOps0 (F := F)) W (Proc.devRef .tc main_arg1) = W (Proc.devRef .tc main_arg1) := by after_results_simp
theorem keeps_arg2 (W : Valuation τ sig (Elt F)) :
    StableHlo.after (hostOps0 (F := F)) W (Proc.devRef .tc main_arg2) = W (Proc.devRef .tc main_arg2) := by after_results_simp
theorem keeps_arg3 (W : Valuation τ sig (Elt F)) :
    StableHlo.after (hostOps0 (F := F)) W (Proc.devRef .tc main_arg3) = W (Proc.devRef .tc main_arg3) := by after_results_simp
theorem keeps_arg4 (W : Valuation τ sig (Elt F)) :
    StableHlo.after (hostOps0 (F := F)) W (Proc.devRef .tc main_arg4) = W (Proc.devRef .tc main_arg4) := by after_results_simp

end Cert.KernelIdeal.HostEntry

end
-- ==== Proof.HostLayer.lean ====
/-
  The two stretches of host operations that stand before the combine regions, one per layer. Each reads the projection `h` the
  region before it left, and — computed once by the first stretch — the index rows, the edge weights and `dinv²`; it gathers
  `h`'s rows at the edges' sources, scales them by the weights and scatter-adds them at the targets (the edge aggregate),
  scales `h` by `dinv²` (the self-loop term), and reshapes the bias to one row. These are the specification's `agg`,
  `selfTerm` and `biasRow`, operation for operation; the only difference in spelling is that the kernel program reshapes the
  bias where the specification broadcasts it, and a vector read as a one-row matrix is the same row either way.
-/
import proofs.«113286_j54803782697391_1_alg».proof.Proof.Spec
import proofs.«113286_j54803782697391_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostLayer

open Cert.KernelIdeal Cert.KernelIdeal.Gen Idealize.ShloMosaic Idealize.ShloMosaic.TcCoe Idealize.SL.Sem Idealize.ShloMosaic.StableHlo
open Cert.GcnSpec

variable {F : FTy → Type} [FloatOps F]

open Idealize.ShloMosaic.ValueIdx

/-- A vector of 128 channels reshaped to a [1, 128] matrix is the vector laid along the matrix's second axis. -/
theorem reshape_row (b : (⟨Cert.ReferenceIdeal.S128, .f32⟩ : BufTy).Contents (Elt F)) :
    shapeCast Cert.KernelIdeal.S1x128 b shapeCasts_S128_S1x128 = biasRow b := by
  funext i
  obtain ⟨u, q, rfl⟩ : ∃ (u : Fin 1) (q : Fin 128), i = ix2 u q := ⟨i 0, i 1, eq_ix2 i⟩
  rw [shapeCast_a_1a_apply]
  unfold biasRow
  exact (broadcastInDim_apply _ Cert.ReferenceIdeal.Gen.bcast_S128_S1x128_1 b (ix2 u q) (ix1 q) (fun a => match a with
    | ⟨0, _⟩ => by show q.val = if (128 : Nat) = 1 then 0 else q.val; rw [if_neg (by decide)])).symm

/-! ## The stretch before the first combine -/

/-- The edge aggregate of the projection `h` the stretch finds in the projection's buffer. -/
theorem agg_first (W : Valuation τ sig (Elt F)) (h : (⟨Cert.ReferenceIdeal.S100000x128, .f32⟩ : BufTy).Contents (Elt F)) (e : (⟨Cert.ReferenceIdeal.S2x1600000, .i32⟩ : BufTy).Contents (Elt F))
    (hsrc : W (Proc.devRef .tc main_v1) = srcIdx e) (hdst : W (Proc.devRef .tc main_v3) = dstIdx e)
    (hw : W (Proc.devRef .tc main_v29) = edgeWeight e) (hh : W (Proc.devRef .tc main_v30) = h) :
    StableHlo.after (hostOps1 (F := F)) W (Proc.devRef .tc main_v43) = Cert.GcnSpec.agg h e := by
  after_results_simp
  rw [hsrc, hdst, hw, hh]
  rfl

/-- The self-loop term of that projection. -/
theorem self_first (W : Valuation τ sig (Elt F)) (h : (⟨Cert.ReferenceIdeal.S100000x128, .f32⟩ : BufTy).Contents (Elt F)) (e : (⟨Cert.ReferenceIdeal.S2x1600000, .i32⟩ : BufTy).Contents (Elt F))
    (hd : W (Proc.devRef .tc main_v14) = Cert.GcnSpec.dinvSq e) (hh : W (Proc.devRef .tc main_v30) = h) :
    StableHlo.after (hostOps1 (F := F)) W (Proc.devRef .tc main_v46) = selfTerm h e := by
  after_results
  rw [hd, hh]
  rfl

/-- The bias as a one-row matrix. -/
theorem bias_first (W : Valuation τ sig (Elt F)) (b : (⟨Cert.ReferenceIdeal.S128, .f32⟩ : BufTy).Contents (Elt F)) (hb : W (Proc.devRef .tc main_arg2) = b) :
    StableHlo.after (hostOps1 (F := F)) W (Proc.devRef .tc main_v47) = biasRow b := by
  after_results
  rw [hb]
  exact reshape_row b

/-- The stretch writes none of the buffers later segments read from before it. -/
theorem keeps_src_first (W : Valuation τ sig (Elt F)) :
    StableHlo.after (hostOps1 (F := F)) W (Proc.devRef .tc main_v1) = W (Proc.devRef .tc main_v1) := by after_results_simp
theorem keeps_dst_first (W : Valuation τ sig (Elt F)) :
    StableHlo.after (hostOps1 (F := F)) W (Proc.devRef .tc main_v3) = W (Proc.devRef .tc main_v3) := by after_results_simp
theorem keeps_dinvSq_first (W : Valuation τ sig (Elt F)) :
    StableHlo.after (hostOps1 (F := F)) W (Proc.devRef .tc main_v14) = W (Proc.devRef .tc main_v14) := by after_results_simp
theorem keeps_weight_first (W : Valuation τ sig (Elt F)) :
    StableHlo.after (hostOps1 (F := F)) W (Proc.devRef .tc main_v29) = W (Proc.devRef .tc main_v29) := by after_results_simp
theorem keeps_arg3_first (W : Valuation τ sig (Elt F)) :
    StableHlo.after (hostOps1 (F := F)) W (Proc.devRef .tc main_arg3) = W (Proc.devRef .tc main_arg3) := by after_results_simp
theorem keeps_arg4_first (W : Valuation τ sig (Elt F)) :
    StableHlo.after (hostOps1 (F := F)) W (Proc.devRef .tc main_arg4) = W (Proc.devRef .tc main_arg4) := by after_results_simp

/-! ## The stretch before the second combine -/

/-- The edge aggregate of the projection `h` the stretch finds in the projection's buffer. -/
theorem agg_second (W : Valuation τ sig (Elt F)) (h : (⟨Cert.ReferenceIdeal.S100000x128, .f32⟩ : BufTy).Contents (Elt F)) (e : (⟨Cert.ReferenceIdeal.S2x1600000, .i32⟩ : BufTy).Contents (Elt F))
    (hsrc : W (Proc.devRef .tc main_v1) = srcIdx e) (hdst : W (Proc.devRef .tc main_v3) = dstIdx e)
    (hw : W (Proc.devRef .tc main_v29) = edgeWeight e) (hh : W (Proc.devRef .tc main_v49) = h) :
    StableHlo.after (hostOps3 (F := F)) W (Proc.devRef .tc main_v62) = Cert.GcnSpec.agg h e := by
  after_results_simp
  rw [hsrc, hdst, hw, hh]
  rfl

/-- The self-loop term of that projection. -/
theorem self_second (W : Valuation τ sig (Elt F)) (h : (⟨Cert.ReferenceIdeal.S100000x128, .f32⟩ : BufTy).Contents (Elt F)) (e : (⟨Cert.ReferenceIdeal.S2x1600000, .i32⟩ : BufTy).Contents (Elt F))
    (hd : W (Proc.devRef .tc main_v14) = Cert.GcnSpec.dinvSq e) (hh : W (Proc.devRef .tc main_v49) = h) :
    StableHlo.after (hostOps3 (F := F)) W (Proc.devRef .tc main_v65) = selfTerm h e := by
  after_results
  rw [hd, hh]
  rfl

/-- The bias as a one-row matrix. -/
theorem bias_second (W : Valuation τ sig (Elt F)) (b : (⟨Cert.ReferenceIdeal.S128, .f32⟩ : BufTy).Contents (Elt F)) (hb : W (Proc.devRef .tc main_arg4) = b) :
    StableHlo.after (hostOps3 (F := F)) W (Proc.devRef .tc main_v66) = biasRow b := by
  after_results
  rw [hb]
  exact reshape_row b

/-- The stretch writes none of the buffers later segments read from before it. -/
theorem keeps_src_second (W : Valuation τ sig (Elt F)) :
    StableHlo.after (hostOps3 (F := F)) W (Proc.devRef .tc main_v1) = W (Proc.devRef .tc main_v1) := by after_results_simp
theorem keeps_dst_second (W : Valuation τ sig (Elt F)) :
    StableHlo.after (hostOps3 (F := F)) W (Proc.devRef .tc main_v3) = W (Proc.devRef .tc main_v3) := by after_results_simp
theorem keeps_dinvSq_second (W : Valuation τ sig (Elt F)) :
    StableHlo.after (hostOps3 (F := F)) W (Proc.devRef .tc main_v14) = W (Proc.devRef .tc main_v14) := by after_results_simp
theorem keeps_weight_second (W : Valuation τ sig (Elt F)) :
    StableHlo.after (hostOps3 (F := F)) W (Proc.devRef .tc main_v29) = W (Proc.devRef .tc main_v29) := by after_results_simp
theorem keeps_arg3_second (W : Valuation τ sig (Elt F)) :
    StableHlo.after (hostOps3 (F := F)) W (Proc.devRef .tc main_arg3) = W (Proc.devRef .tc main_arg3) := by after_results_simp
theorem keeps_arg4_second (W : Valuation τ sig (Elt F)) :
    StableHlo.after (hostOps3 (F := F)) W (Proc.devRef .tc main_arg4) = W (Proc.devRef .tc main_arg4) := by after_results_simp

end Cert.KernelIdeal.HostLayer

end
-- ==== Proof.CombineValue.lean ====
/-
  The two combine regions of the idealized kernel, each read as one whole-array function.

  A combine region takes two [100000, 128] arrays `a`, `s` and a one-row array `r : [1, 128]`; at grid point `t` (of twenty) its
  body loads row block `t` of `a` and of `s` (5000 rows) and the whole of `r`, and stores `(a + s) + r` — `r` repeated on every
  row — into row block `t` of the output; the first layer's region then takes the maximum with zero. Entry `(5000·t + p, q)` of the
  output depends on entries `(5000·t + p, q)` of `a` and `s` and on entry `(0, q)` of `r`, and on nothing else; the twenty blocks
  tile the output. So after the region the output array is `combine a s r` (for the first layer, its positive part), the
  specification's own term, whatever the three arrays held when the region was entered.
-/
import proofs.«113286_j54803782697391_1_alg».proof.Proof.Spec
import proofs.«113286_j54803782697391_1_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.CombineValue

open Cert.KernelIdeal Cert.KernelIdeal.Gen Idealize.ShloMosaic Idealize.ShloMosaic.TcCoe Idealize.SL.Sem
open Idealize.ShloMosaic.Pipeline (Dat Cfg Window)
open Idealize.ShloMosaic.ValueIdx

-- The region-entry contents of the TensorCore's buffers: a parameter, so that each region's value holds wherever in the
-- program the region runs.
variable (V : (c : Dev nD) → (b : Ref sig .tc) → Buf (Elt Ideal) ((c : Thread nD τ).loc b))

/-- The offset of a store or load of a whole rank-2 buffer. -/
theorem origin : (![0, 0] : Fin 2 → Nat) = fun _ => 0 := funext fun a => by fin_cases a <;> rfl

/-! ## The bodies' arithmetic at an index -/

/-- The second combine's stored value at row `p`, channel `q` of the block: `(a + s) + r`, the row `r` read at `(0, q)`. -/
theorem block_sum (a s : Vec Ideal S5000x128 .f32) (r : Vec Ideal S1x128 .f32) (p : Fin 5000) (q : Fin 128) :
    k3_pay1 a s r (ix2 p q) = (a (ix2 p q) + s (ix2 p q)) + r (ix2 (0 : Fin 1) q) := by
  unfold k3_pay1
  rw [shapeCast_self, shapeCast_self, shapeCast_self, addf_apply, addf_apply, broadcastTo_1b_ab_apply]

/-- The first combine's stored value: the maximum of that sum and zero. -/
theorem block_sum_pos (a s : Vec Ideal S5000x128 .f32) (r : Vec Ideal S1x128 .f32) (p : Fin 5000) (q : Fin 128) :
    k1_pay1 a s r (ix2 p q) = max ((a (ix2 p q) + s (ix2 p q)) + r (ix2 (0 : Fin 1) q)) (Ideal.ofBits .f32 0x00000000#32) := by
  unfold k1_pay1
  rw [shapeCast_self, shapeCast_self, shapeCast_self, maximumf_apply, addf_apply, addf_apply, broadcastTo_1b_ab_apply]
  rfl

/-! ## The specification's terms at an index -/

/-- `combine a s r` at node `n`, channel `q`. -/
theorem sum_at (A S : (⟨Cert.ReferenceIdeal.S100000x128, .f32⟩ : BufTy).Contents (Elt Ideal))
    (R : (⟨Cert.ReferenceIdeal.S1x128, .f32⟩ : BufTy).Contents (Elt Ideal)) (n : Fin 100000) (q : Fin 128) :
    Cert.GcnSpec.combine A S R (ix2 n q) = (A (ix2 n q) + S (ix2 n q)) + R (ix2 (0 : Fin 1) q) := by
  unfold Cert.GcnSpec.combine Cert.GcnSpec.rowOnNodes
  rw [addf_apply, addf_apply]
  refine congrArg (A (ix2 n q) + S (ix2 n q) + ·) ?_
  exact broadcastInDim_apply _ Cert.ReferenceIdeal.Gen.bcast_S1x128_S100000x128_0_1 R (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])

/-- The positive part of `combine a s r` at node `n`, channel `q`. -/
theorem sum_pos_at (A S : (⟨Cert.ReferenceIdeal.S100000x128, .f32⟩ : BufTy).Contents (Elt Ideal))
    (R : (⟨Cert.ReferenceIdeal.S1x128, .f32⟩ : BufTy).Contents (Elt Ideal)) (n : Fin 100000) (q : Fin 128) :
    Cert.GcnSpec.relu (Cert.GcnSpec.combine A S R) (ix2 n q)
      = max ((A (ix2 n q) + S (ix2 n q)) + R (ix2 (0 : Fin 1) q)) (Ideal.ofBits .f32 0x00000000#32) := by
  unfold Cert.GcnSpec.relu
  rw [maximumf_apply, sum_at]
  refine congrArg (max (A (ix2 n q) + S (ix2 n q) + R (ix2 (0 : Fin 1) q)) ·) ?_
  exact broadcastInDim_apply _ Cert.ReferenceIdeal.Gen.bcast_S_S100000x128 (constant (F := Ideal) Cert.ReferenceIdeal.S_ .f32 0x00000000#32)
    (ix2 n q) ix0 (fun a => a.elim0)

/-! ## The first combine (the first layer's last step) -/

/-- Where the windows' blocks sit, decided once over the twenty grid points: at point `t` the two summands' blocks and the
    output's block are row block `t` (rows `5000·t … 5000·t + 4999`, every channel); the bias row's block is the whole row. -/
theorem blocks_first : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is row block `t` of the whole-array sum of the three arrays as the region finds them. -/
theorem flushed_first (c : Dev nD) (t : Fin cfg1.N) :
    (dat1 (F := Ideal) V c).flushed 3 t = ((cfg1.win 3).blk t).view.read (Elt Ideal) (Cert.GcnSpec.relu (Cert.GcnSpec.combine (V c main_v43) (V c main_v46) (V c main_v47))) := by
  show (cfg1.win 3).cut (grid1.coords t) ((dat1 V c).after 3 t) = _
  rw [after1_3]
  unfold out1_3
  rw [View.canon_unit_zero origin]
  simp only [View.ld_unit_zero (S := S5000x128) origin, View.ld_unit_zero (S := S1x128) origin]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = (Cert.GcnSpec.relu (Cert.GcnSpec.combine (V c main_v43) (V c main_v46) (V c main_v47))) (((cfg1.win 3).blk t).view.emb (ix2 p q))
  refine (block_sum_pos (iblk1 V c 0 t) (iblk1 V c 1 t) (iblk1 V c 2 t) p q).trans ?_
  obtain ⟨e00, e01, e10, e11, e20, e21, e30, e31⟩ := blocks_first t
  have ht : t.val < 20 := t.isLt
  have e3 : ((cfg1.win 3).blk t).view.emb (ix2 p q) = ix2 (⟨t.val * 5000 + p.val, by omega⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 128 + 1 * q.val = q.val; omega
  have h0 : iblk1 V c 0 t (ix2 p q) = V c main_v43 (ix2 (⟨t.val * 5000 + p.val, by omega⟩ : Fin 100000) q) := by
    show V c main_v43 (((cfg1.win 0).blk t).view.emb (ix2 p q)) = _
    refine congrArg (V c main_v43) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : iblk1 V c 1 t (ix2 p q) = V c main_v46 (ix2 (⟨t.val * 5000 + p.val, by omega⟩ : Fin 100000) q) := by
    show V c main_v46 (((cfg1.win 1).blk t).view.emb (ix2 p q)) = _
    refine congrArg (V c main_v46) ?_
    funext a; apply Fin.ext
    match a with
    | ⟨0, _⟩ => show win1_1.index t (0 : Fin 2) * 5000 + 1 * p.val = t.val * 5000 + p.val; omega
    | ⟨1, _⟩ => show win1_1.index t (1 : Fin 2) * 128 + 1 * q.val = q.val; omega
  have h2 : iblk1 V c 2 t (ix2 (0 : Fin 1) q) = V c main_v47 (ix2 (0 : Fin 1) q) := by
    show V c main_v47 (((cfg1.win 2).blk t).view.emb (ix2 (0 : Fin 1) q)) = _
    refine congrArg (V c main_v47) ?_
    funext a; apply Fin.ext
    match a with
    | ⟨0, _⟩ => show win1_2.index t (0 : Fin 2) * 1 + 1 * 0 = 0; omega
    | ⟨1, _⟩ => show win1_2.index t (1 : Fin 2) * 128 + 1 * q.val = q.val; omega
  rw [e3, h0, h1, h2]
  exact (sum_pos_at (V c main_v43) (V c main_v46) (V c main_v47) _ q).symm

/-- A node's row lies in point `t`'s block iff each coordinate is in the block's range on its axis. -/
theorem mem_block_first (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v48).slice (win1_3.rect t)).set ↔ _
  rw [View.set_slice_whole, Rect.mem_set_unit]
  exact Iff.rfl

/-- Every entry of the output is written: node `n`'s row is in the block of point `n / 5000`. -/
theorem cover_first (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := rfl
  refine ⟨⟨(i 0).val / 5000, by rw [hN]; omega⟩, flush1_3 _, ?_⟩
  rw [mem_block_first]
  obtain ⟨-, -, -, -, -, -, e30, e31⟩ := blocks_first ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]
    show (i 0).val / 5000 * 5000 ≤ (i 0).val ∧ (i 0).val < (i 0).val / 5000 * 5000 + 5000
    omega
  | ⟨1, _⟩ =>
    show win1_3.index _ (1 : Fin 2) * 128 ≤ (i 1).val ∧ (i 1).val < win1_3.index _ (1 : Fin 2) * 128 + 128
    rw [e31]; omega

/-- After its twenty write-backs the region's output array is the positive part of the sum `(a + s) + r` of the three arrays the
    region found, the one-row `r` on every node. -/
theorem first_combine (c : Dev nD) :
    (dat1 (F := Ideal) V c).arrAt 3 cfg1.N = Cert.GcnSpec.relu (Cert.GcnSpec.combine (V c main_v43) (V c main_v46) (V c main_v47)) :=
  (dat1 (F := Ideal) V c).arrAt_eq_of_cover 3 _ (fun t _ => flushed_first V c t) cover_first

/-! ## The second combine (the second layer's last step) -/

/-- Where the windows' blocks sit, decided once over the twenty grid points: at point `t` the two summands' blocks and the
    output's block are row block `t` (rows `5000·t … 5000·t + 4999`, every channel); the bias row's block is the whole row. -/
theorem blocks_second : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is row block `t` of the whole-array sum of the three arrays as the region finds them. -/
theorem flushed_second (c : Dev nD) (t : Fin cfg3.N) :
    (dat3 (F := Ideal) V c).flushed 3 t = ((cfg3.win 3).blk t).view.read (Elt Ideal) (Cert.GcnSpec.combine (V c main_v62) (V c main_v65) (V c main_v66)) := by
  show (cfg3.win 3).cut (grid3.coords t) ((dat3 V c).after 3 t) = _
  rw [after3_3]
  unfold out3_3
  rw [View.canon_unit_zero origin]
  simp only [View.ld_unit_zero (S := S5000x128) origin, View.ld_unit_zero (S := S1x128) origin]
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
    = (Cert.GcnSpec.combine (V c main_v62) (V c main_v65) (V c main_v66)) (((cfg3.win 3).blk t).view.emb (ix2 p q))
  refine (block_sum (iblk3 V c 0 t) (iblk3 V c 1 t) (iblk3 V c 2 t) p q).trans ?_
  obtain ⟨e00, e01, e10, e11, e20, e21, e30, e31⟩ := blocks_second t
  have ht : t.val < 20 := t.isLt
  have e3 : ((cfg3.win 3).blk t).view.emb (ix2 p q) = ix2 (⟨t.val * 5000 + p.val, by omega⟩ : Fin 100000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  have h0 : iblk3 V c 0 t (ix2 p q) = V c main_v62 (ix2 (⟨t.val * 5000 + p.val, by omega⟩ : Fin 100000) q) := by
    show V c main_v62 (((cfg3.win 0).blk t).view.emb (ix2 p q)) = _
    refine congrArg (V c main_v62) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : iblk3 V c 1 t (ix2 p q) = V c main_v65 (ix2 (⟨t.val * 5000 + p.val, by omega⟩ : Fin 100000) q) := by
    show V c main_v65 (((cfg3.win 1).blk t).view.emb (ix2 p q)) = _
    refine congrArg (V c main_v65) ?_
    funext a; apply Fin.ext
    match a with
    | ⟨0, _⟩ => show win3_1.index t (0 : Fin 2) * 5000 + 1 * p.val = t.val * 5000 + p.val; omega
    | ⟨1, _⟩ => show win3_1.index t (1 : Fin 2) * 128 + 1 * q.val = q.val; omega
  have h2 : iblk3 V c 2 t (ix2 (0 : Fin 1) q) = V c main_v66 (ix2 (0 : Fin 1) q) := by
    show V c main_v66 (((cfg3.win 2).blk t).view.emb (ix2 (0 : Fin 1) q)) = _
    refine congrArg (V c main_v66) ?_
    funext a; apply Fin.ext
    match a with
    | ⟨0, _⟩ => show win3_2.index t (0 : Fin 2) * 1 + 1 * 0 = 0; omega
    | ⟨1, _⟩ => show win3_2.index t (1 : Fin 2) * 128 + 1 * q.val = q.val; omega
  rw [e3, h0, h1, h2]
  exact (sum_at (V c main_v62) (V c main_v65) (V c main_v66) _ q).symm

/-- A node's row lies in point `t`'s block iff each coordinate is in the block's range on its axis. -/
theorem mem_block_second (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v67).slice (win3_3.rect t)).set ↔ _
  rw [View.set_slice_whole, Rect.mem_set_unit]
  exact Iff.rfl

/-- Every entry of the output is written: node `n`'s row is in the block of point `n / 5000`. -/
theorem cover_second (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := rfl
  refine ⟨⟨(i 0).val / 5000, by rw [hN]; omega⟩, flush3_3 _, ?_⟩
  rw [mem_block_second]
  obtain ⟨-, -, -, -, -, -, e30, e31⟩ := blocks_second ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e30]
    show (i 0).val / 5000 * 5000 ≤ (i 0).val ∧ (i 0).val < (i 0).val / 5000 * 5000 + 5000
    omega
  | ⟨1, _⟩ =>
    show win3_3.index _ (1 : Fin 2) * 128 ≤ (i 1).val ∧ (i 1).val < win3_3.index _ (1 : Fin 2) * 128 + 128
    rw [e31]; omega

/-- After its twenty write-backs the region's output array is the sum `(a + s) + r` of the three arrays the
    region found, the one-row `r` on every node. -/
theorem second_combine (c : Dev nD) :
    (dat3 (F := Ideal) V c).arrAt 3 cfg3.N = Cert.GcnSpec.combine (V c main_v62) (V c main_v65) (V c main_v66) :=
  (dat3 (F := Ideal) V c).arrAt_eq_of_cover 3 _ (fun t _ => flushed_second V c t) cover_second

end Cert.KernelIdeal.CombineValue

end
-- ==== Proof.ProjValue.lean ====
/-
  The two projections of the graph convolution, `x · W₁` and `h · W₂`, as the kernel program computes them: each is a
  pipeline over twenty row blocks of 5000 rows whose body multiplies the block by the whole weight matrix into a zero
  accumulator. At the ideal values rounding the operands is the identity, so an entry of a block is the sum over the
  shared coordinate of the row entry times the column entry; row `p` of block `t` is row `5000 t + p` of the array, the
  weight's block is the whole matrix, and the twenty blocks cover the result array. So after the write-backs the result
  array is, as one function, the host's matrix product of the two arrays as the region found them.
-/
import proofs.«113286_j54803782697391_1_alg».proof.Proof.Spec
import proofs.«113286_j54803782697391_1_alg».proof.Proof.Gen.KernelIdeal.Frame
import proofs.«113286_j54803782697391_1_alg».proof.Proof.Gen.ReferenceIdeal.Read
import Idealize.ShloMosaic.Lib.Pipeline.Value
import Idealize.ShloMosaic.Lib.ValueIdx
import Idealize.ShloMosaic.PureOps.Ideal.Laws

noncomputable section

namespace Cert.KernelIdeal.ProjValue

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2 eq_ix2)

/-! ## A row block of a product at an entry -/

/-- The left operand's row coordinate at an entry of the product is the entry's row. -/
theorem lhs256_row (i : S5000x128.Idx) (r : dot_S5000x256_S256x128_S5000x128_1_0_0_1_n_n.contr.Idx) :
    (dot_S5000x256_S256x128_S5000x128_1_0_0_1_n_n.lhsIdx i r 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl

/-- The right operand's column coordinate at an entry of the product is the entry's column. -/
theorem rhs256_col (i : S5000x128.Idx) (r : dot_S5000x256_S256x128_S5000x128_1_0_0_1_n_n.contr.Idx) :
    (dot_S5000x256_S256x128_S5000x128_1_0_0_1_n_n.rhsIdx i r 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- A row block of the product at an entry: the sum over the 256 shared coordinates of the left operand's row entry
    times the right operand's column entry (rounding the operands is the identity at the ideal values, and the
    accumulator starts at zero). -/
theorem rowBlock256_apply (x : Vec Ideal S5000x256 .f32) (w : Vec Ideal S256x128 .f32) (p : Fin 5000) (q : Fin 128) :
    k0_pay1 x w (ix2 p q) = ∑ k : Fin 256, x (ix2 p k) * w (ix2 k q) := by
  unfold k0_pay1
  simp only [matmul]
  rw [Ideal.matmul_constant_zero_apply,
    ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q)
      ((ValueIdx.contrEquiv1 dot_S5000x256_S256x128_S5000x128_1_0_0_1_n_n 256 rfl rfl).symm k) = ix2 p k :=
    funext fun a => Fin.ext (by
      match a with
      | ⟨0, _⟩ => exact lhs256_row _ _
      | ⟨1, _⟩ => exact (dot_S5000x256_S256x128_S5000x128_1_0_0_1_n_n.lhsIdx_val_of_single rfl _ _).trans hk)
  have er : dot_S5000x256_S256x128_S5000x128_1_0_0_1_n_n.rhsIdx (ix2 p q)
      ((ValueIdx.contrEquiv1 dot_S5000x256_S256x128_S5000x128_1_0_0_1_n_n 256 rfl rfl).symm k) = ix2 k q :=
    funext fun a => Fin.ext (by
      match a with
      | ⟨0, _⟩ => exact (dot_S5000x256_S256x128_S5000x128_1_0_0_1_n_n.rhsIdx_val_of_single rfl _ _).trans hk
      | ⟨1, _⟩ => exact rhs256_col _ _)
  rw [el, er]
  rfl

/-- The left operand's row coordinate at an entry of the product is the entry's row. -/
theorem lhs128_row (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- The right operand's column coordinate at an entry of the product is the entry's column. -/
theorem rhs128_col (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- A row block of the product at an entry: the sum over the 128 shared coordinates of the left operand's row entry
    times the right operand's column entry (rounding the operands is the identity at the ideal values, and the
    accumulator starts at zero). -/
theorem rowBlock128_apply (x : Vec Ideal S5000x128 .f32) (w : Vec Ideal S128x128 .f32) (p : Fin 5000) (q : Fin 128) :
    k2_pay1 x w (ix2 p q) = ∑ k : Fin 128, x (ix2 p k) * w (ix2 k q) := by
  unfold k2_pay1
  simp only [matmul, shapeCast_self]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs128_row _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (dot_S5000x128_S128x128_S5000x128_1_0_0_1_n_n.rhsIdx_val_of_single rfl _ _).trans hk
      | ⟨1, _⟩ => exact rhs128_col _ _)
  rw [el, er]
  rfl

variable (V : (c : Dev nD) → (b : Ref sig .tc) → Buf (Elt Ideal) ((c : Thread nD τ).loc b))

/-- The body's accesses all start at the origin of their blocks. -/
theorem origin2 : (![0, 0] : Fin 2 → Nat) = fun _ => 0 := funext fun a => by fin_cases a <;> rfl

/-! ## The first projection: `x · W₁`, twenty row blocks of 5000 rows -/

/-- The specification at an entry: the sum over the 256 shared coordinates. -/
theorem proj1_apply (X : Vec Ideal S100000x256 .f32) (W : Vec Ideal S256x128 .f32) (r : Fin 100000) (q : Fin 128) :
    Cert.GcnSpec.proj1 X W (ix2 r q) = ∑ k : Fin 256, X (ix2 r k) * W (ix2 k q) := by
  refine (Cert.ReferenceIdeal.Read.val_main_v4_apply X W (ix2 r q)).trans ?_
  refine Finset.sum_congr rfl fun k _ => ?_
  have el : Cert.ReferenceIdeal.Read.lidx_main_v4 (ix2 r q) k = ix2 r k :=
    funext fun a => by match a with | ⟨0, _⟩ => rfl | ⟨1, _⟩ => rfl
  have er : Cert.ReferenceIdeal.Read.ridx_main_v4 (ix2 r q) k = ix2 k q :=
    funext fun a => by match a with | ⟨0, _⟩ => rfl | ⟨1, _⟩ => rfl
  rw [el, er]

/-- Where the three windows' blocks sit at each of the twenty points: the left operand's and the result's at row block
    `t`, the right operand's whole. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the left operand's block at point `t` is row `5000 t + p` of the array. -/
theorem leftBlock0_apply (c : Dev nD) (t : Fin cfg0.N) (p : Fin 5000) (k : Fin 256) (r : Fin 100000)
    (hr : r.val = 5000 * t.val + p.val) :
    (iblk0 V c 0 t : Vec Ideal S5000x256 .f32) (ix2 p k) = (V c main_arg0 : Vec Ideal S100000x256 .f32) (ix2 r k) := by
  obtain ⟨e0, e1, -⟩ := blockIndex0 t
  unfold iblk0
  rw [View.read_apply]
  show V c main_arg0 _ = V c main_arg0 _
  refine congrArg _ ?_
  funext a
  apply Fin.ext
  match a with
  | ⟨0, _⟩ => show win0_0.index t (0 : Fin 2) * 5000 + 1 * p.val = r.val; omega
  | ⟨1, _⟩ => show win0_0.index t (1 : Fin 2) * 256 + 1 * k.val = k.val; omega

/-- The right operand's block at every point is the whole array. -/
theorem rightBlock0_apply (c : Dev nD) (t : Fin cfg0.N) (k : Fin 256) (q : Fin 128) :
    (iblk0 V c 1 t : Vec Ideal S256x128 .f32) (ix2 k q) = (V c main_arg1 : Vec Ideal S256x128 .f32) (ix2 k q) := by
  obtain ⟨-, -, e0, e1, -⟩ := blockIndex0 t
  unfold iblk0
  rw [View.read_apply]
  show V c main_arg1 _ = V c main_arg1 _
  refine congrArg _ ?_
  funext a
  apply Fin.ext
  match a with
  | ⟨0, _⟩ => show win0_1.index t (0 : Fin 2) * 256 + 1 * k.val = k.val; omega
  | ⟨1, _⟩ => show win0_1.index t (1 : Fin 2) * 128 + 1 * q.val = q.val; omega

/-- What point `t` writes back is row block `t` of the product of the two arrays as the region found them. -/
theorem flushed0_eq (c : Dev nD) (t : Fin cfg0.N) :
    (dat0 V c).flushed 2 t
      = ((cfg0.win 2).blk t).view.read (Elt Ideal) (Cert.GcnSpec.proj1 (V c main_arg0) (V c main_arg1)) := by
  show (cfg0.win 2).cut (grid0.coords t) ((dat0 V c).after 2 t) = _
  rw [after0_2]
  unfold out0_2
  rw [View.canon_unit_zero origin2]
  simp only [View.ld_unit_zero (S := S5000x256) origin2, View.ld_unit_zero (S := S256x128) origin2]
  have ht : t.val < 20 := lt_of_lt_of_eq t.isLt N_0
  obtain ⟨-, -, -, -, e0, e1⟩ := blockIndex0 t
  funext j
  obtain ⟨p, q, rfl⟩ : ∃ (p : Fin 5000) (q : Fin 128), j = ix2 p q := ⟨j 0, j 1, eq_ix2 j⟩
  have hlt : 5000 * t.val + p.val < 100000 := by have := p.isLt; omega
  have hi : ((cfg0.win 2).blk t).view.emb (ix2 p q)
      = (ix2 (⟨5000 * t.val + p.val, hlt⟩ : Fin 100000) q : S100000x128.Idx) := by
    funext a
    apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  show k0_pay1 (iblk0 V c 0 t) (iblk0 V c 1 t) (ix2 p q)
    = Cert.GcnSpec.proj1 (V c main_arg0) (V c main_arg1) (((cfg0.win 2).blk t).view.emb (ix2 p q))
  rw [hi, proj1_apply]
  refine (rowBlock256_apply (iblk0 V c 0 t) (iblk0 V c 1 t) p q).trans ?_
  refine Finset.sum_congr rfl fun k _ => ?_
  rw [leftBlock0_apply V c t p k ⟨5000 * t.val + p.val, hlt⟩ rfl, rightBlock0_apply V c t k q]

/-- An entry of the result array is in point `t`'s block iff each coordinate is in the block's range on its axis. -/
theorem mem_block0 (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v30).slice (win0_2.rect t)).set ↔ _
  rw [View.set_slice_whole, Rect.mem_set_unit]
  exact Iff.rfl

/-- Every entry of the result array lies in the block of the point its row falls in. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_block0]
  obtain ⟨-, -, -, -, e0, e1⟩ := blockIndex0 ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e0]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e1]; omega

/-- After the twenty write-backs the result array is, as one function, the product of the two arrays as the region
    found them. -/
theorem first_projection (c : Dev nD) :
    (dat0 (F := Ideal) V c).arrAt 2 cfg0.N = Cert.GcnSpec.proj1 (V c main_arg0) (V c main_arg1) :=
  (dat0 V c).arrAt_eq_of_cover 2 (Cert.GcnSpec.proj1 (V c main_arg0) (V c main_arg1))
    (fun t _ => flushed0_eq V c t) cover0

/-! ## The second projection: `h · W₂`, the same pipeline with 128 shared coordinates -/

/-- The specification at an entry: the sum over the 128 shared coordinates. -/
theorem proj2_apply (H : Vec Ideal S100000x128 .f32) (W : Vec Ideal S128x128 .f32) (r : Fin 100000) (q : Fin 128) :
    Cert.GcnSpec.proj2 H W (ix2 r q) = ∑ k : Fin 128, H (ix2 r k) * W (ix2 k q) := by
  unfold Cert.GcnSpec.proj2
  simp only [Host.dotGeneral]
  rw [Ideal.dotGeneral_apply,
    ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q)
      ((ValueIdx.contrEquiv1 Cert.ReferenceIdeal.dot_S100000x128_S128x128_S100000x128_1_0_0_1_n_n 128 rfl rfl).symm k) = ix2 r k :=
    funext fun a => Fin.ext (by
      match a with
      | ⟨0, _⟩ => exact Cert.ReferenceIdeal.Read.lhs_main_v52_0 _ _
      | ⟨1, _⟩ => exact (Cert.ReferenceIdeal.Read.lhs_main_v52_1 _ _).trans hk)
  have er : Cert.ReferenceIdeal.dot_S100000x128_S128x128_S100000x128_1_0_0_1_n_n.rhsIdx (ix2 r q)
      ((ValueIdx.contrEquiv1 Cert.ReferenceIdeal.dot_S100000x128_S128x128_S100000x128_1_0_0_1_n_n 128 rfl rfl).symm k) = ix2 k q :=
    funext fun a => Fin.ext (by
      match a with
      | ⟨0, _⟩ => exact (Cert.ReferenceIdeal.Read.rhs_main_v52_0 _ _).trans hk
      | ⟨1, _⟩ => exact Cert.ReferenceIdeal.Read.rhs_main_v52_1 _ _)
  rw [el, er]

/-- Where the three windows' blocks sit at each of the twenty points: the left operand's and the result's at row block
    `t`, the right operand's whole. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the left operand's block at point `t` is row `5000 t + p` of the array. -/
theorem leftBlock2_apply (c : Dev nD) (t : Fin cfg2.N) (p : Fin 5000) (k : Fin 128) (r : Fin 100000)
    (hr : r.val = 5000 * t.val + p.val) :
    (iblk2 V c 0 t : Vec Ideal S5000x128 .f32) (ix2 p k) = (V c main_v48 : Vec Ideal S100000x128 .f32) (ix2 r k) := by
  obtain ⟨e0, e1, -⟩ := blockIndex2 t
  unfold iblk2
  rw [View.read_apply]
  show V c main_v48 _ = V c main_v48 _
  refine congrArg _ ?_
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The right operand's block at every point is the whole array. -/
theorem rightBlock2_apply (c : Dev nD) (t : Fin cfg2.N) (k : Fin 128) (q : Fin 128) :
    (iblk2 V c 1 t : Vec Ideal S128x128 .f32) (ix2 k q) = (V c main_arg3 : Vec Ideal S128x128 .f32) (ix2 k q) := by
  obtain ⟨-, -, e0, e1, -⟩ := blockIndex2 t
  unfold iblk2
  rw [View.read_apply]
  show V c main_arg3 _ = V c main_arg3 _
  refine congrArg _ ?_
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- What point `t` writes back is row block `t` of the product of the two arrays as the region found them. -/
theorem flushed2_eq (c : Dev nD) (t : Fin cfg2.N) :
    (dat2 V c).flushed 2 t
      = ((cfg2.win 2).blk t).view.read (Elt Ideal) (Cert.GcnSpec.proj2 (V c main_v48) (V c main_arg3)) := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x128) origin2]
  have ht : t.val < 20 := lt_of_lt_of_eq t.isLt N_2
  obtain ⟨-, -, -, -, e0, e1⟩ := blockIndex2 t
  funext j
  obtain ⟨p, q, rfl⟩ : ∃ (p : Fin 5000) (q : Fin 128), j = ix2 p q := ⟨j 0, j 1, eq_ix2 j⟩
  have hlt : 5000 * t.val + p.val < 100000 := by have := p.isLt; omega
  have hi : ((cfg2.win 2).blk t).view.emb (ix2 p q)
      = (ix2 (⟨5000 * t.val + p.val, hlt⟩ : Fin 100000) q : S100000x128.Idx) := by
    funext a
    apply Fin.ext
    match a with
    | ⟨0, _⟩ => show win2_2.index t (0 : Fin 2) * 5000 + 1 * p.val = 5000 * t.val + p.val; omega
    | ⟨1, _⟩ => show win2_2.index t (1 : Fin 2) * 128 + 1 * q.val = q.val; omega
  show k2_pay1 (iblk2 V c 0 t) (iblk2 V c 1 t) (ix2 p q)
    = Cert.GcnSpec.proj2 (V c main_v48) (V c main_arg3) (((cfg2.win 2).blk t).view.emb (ix2 p q))
  rw [hi, proj2_apply]
  refine (rowBlock128_apply (iblk2 V c 0 t) (iblk2 V c 1 t) p q).trans ?_
  refine Finset.sum_congr rfl fun k _ => ?_
  rw [leftBlock2_apply V c t p k ⟨5000 * t.val + p.val, hlt⟩ rfl, rightBlock2_apply V c t k q]

/-- An entry of the result array is in point `t`'s block iff each coordinate is in the block's range on its axis. -/
theorem mem_block2 (t : Fin cfg2.N) (i : S100000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v49).slice (win2_2.rect t)).set ↔ _
  rw [View.set_slice_whole, Rect.mem_set_unit]
  exact Iff.rfl

/-- Every entry of the result array lies in the block of the point its row falls in. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_2 _, ?_⟩
  rw [mem_block2]
  obtain ⟨-, -, -, -, e0, e1⟩ := blockIndex2 ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e0]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e1]; omega

/-- After the twenty write-backs the result array is, as one function, the product of the two arrays as the region
    found them. -/
theorem second_projection (c : Dev nD) :
    (dat2 (F := Ideal) V c).arrAt 2 cfg2.N = Cert.GcnSpec.proj2 (V c main_v48) (V c main_arg3) :=
  (dat2 V c).arrAt_eq_of_cover 2 (Cert.GcnSpec.proj2 (V c main_v48) (V c main_arg3))
    (fun t _ => flushed2_eq V c t) cover2

end Cert.KernelIdeal.ProjValue

end
-- ==== Proof.KernelValue.lean ====
/-
  The idealized kernel's result as a function of its arguments. The run's fold gives every buffer's contents at each of the
  eight boundaries between the program's seven segments. Walking it forward:

    * the first stretch leaves the index rows, the edge weights and `dinv²` of the edge list, and touches no argument;
    * the first projection's region leaves `h₁ = x · W₁` in its output and nothing else changed;
    * the next stretch leaves `agg h₁ e`, `selfTerm h₁ e` and the bias row of `b₁`;
    * the first combine's region leaves `a₁ = max (layer h₁ b₁ e) 0`;
    * the second projection's region leaves `h₂ = a₁ · W₂`;
    * the last stretch leaves `agg h₂ e`, `selfTerm h₂ e` and the bias row of `b₂`;
    * the second combine's region leaves `layer h₂ b₂ e` in the result buffer: `G` of the six arguments.

  A buffer that a segment does not write holds after it what it held before, which is how the values of the first stretch reach
  the later ones.
-/
import proofs.«113286_j54803782697391_1_alg».proof.Proof.Spec
import proofs.«113286_j54803782697391_1_alg».proof.Proof.Gen.KernelIdeal.Frame
import proofs.«113286_j54803782697391_1_alg».proof.Proof.HostEntry
import proofs.«113286_j54803782697391_1_alg».proof.Proof.HostLayer
import proofs.«113286_j54803782697391_1_alg».proof.Proof.CombineValue
import proofs.«113286_j54803782697391_1_alg».proof.Proof.ProjValue

noncomputable section

namespace Cert.KernelIdeal.KernelValue

open Cert.KernelIdeal Cert.KernelIdeal.Gen Idealize.ShloMosaic Idealize.ShloMosaic.TcCoe Idealize.SL.Sem Idealize.ShloMosaic.StableHlo
open Cert.GcnSpec

variable (m : (ℓ : Loc nD τ sig) → Buf (Elt Ideal) ℓ) (ρ : Dev nD → PrngReg) (c : Dev nD)

/-! ## After the first stretch -/

theorem entry_src : W1 m ρ c (Proc.devRef .tc main_v1) = srcIdx (m ((c.tc : Thread nD τ).loc main_arg5)) := HostEntry.src (W0 m ρ c) _ rfl
theorem entry_dst : W1 m ρ c (Proc.devRef .tc main_v3) = dstIdx (m ((c.tc : Thread nD τ).loc main_arg5)) := HostEntry.dst (W0 m ρ c) _ rfl
theorem entry_dinvSq : W1 m ρ c (Proc.devRef .tc main_v14) = dinvSq (m ((c.tc : Thread nD τ).loc main_arg5)) := HostEntry.dinvSq (W0 m ρ c) _ rfl
theorem entry_weight : W1 m ρ c (Proc.devRef .tc main_v29) = edgeWeight (m ((c.tc : Thread nD τ).loc main_arg5)) := HostEntry.weight (W0 m ρ c) _ rfl
theorem entry_arg0 : W1 m ρ c (Proc.devRef .tc main_arg0) = m ((c.tc : Thread nD τ).loc main_arg0) := (HostEntry.keeps_arg0 (W0 m ρ c)).trans rfl
theorem entry_arg1 : W1 m ρ c (Proc.devRef .tc main_arg1) = m ((c.tc : Thread nD τ).loc main_arg1) := (HostEntry.keeps_arg1 (W0 m ρ c)).trans rfl
theorem entry_arg2 : W1 m ρ c (Proc.devRef .tc main_arg2) = m ((c.tc : Thread nD τ).loc main_arg2) := (HostEntry.keeps_arg2 (W0 m ρ c)).trans rfl
theorem entry_arg3 : W1 m ρ c (Proc.devRef .tc main_arg3) = m ((c.tc : Thread nD τ).loc main_arg3) := (HostEntry.keeps_arg3 (W0 m ρ c)).trans rfl
theorem entry_arg4 : W1 m ρ c (Proc.devRef .tc main_arg4) = m ((c.tc : Thread nD τ).loc main_arg4) := (HostEntry.keeps_arg4 (W0 m ρ c)).trans rfl

/-! ## After the first projection -/

/-- The first projection's output. -/
theorem hidden1 : W2 m ρ c (Proc.devRef .tc main_v30) = (proj1 (m ((c.tc : Thread nD τ).loc main_arg0)) (m ((c.tc : Thread nD τ).loc main_arg1))) := by
  refine (W2_arr m ρ c 2).trans ?_
  rw [ProjValue.first_projection]
  show proj1 (W1 m ρ c (Proc.devRef .tc main_arg0)) (W1 m ρ c (Proc.devRef .tc main_arg1)) = _
  rw [entry_arg0, entry_arg1]

theorem mid_src : W2 m ρ c (Proc.devRef .tc main_v1) = srcIdx (m ((c.tc : Thread nD τ).loc main_arg5)) := (W2_of_ne m ρ c main_v1 (by decide)).trans (entry_src m ρ c)
theorem mid_dst : W2 m ρ c (Proc.devRef .tc main_v3) = dstIdx (m ((c.tc : Thread nD τ).loc main_arg5)) := (W2_of_ne m ρ c main_v3 (by decide)).trans (entry_dst m ρ c)
theorem mid_dinvSq : W2 m ρ c (Proc.devRef .tc main_v14) = dinvSq (m ((c.tc : Thread nD τ).loc main_arg5)) := (W2_of_ne m ρ c main_v14 (by decide)).trans (entry_dinvSq m ρ c)
theorem mid_weight : W2 m ρ c (Proc.devRef .tc main_v29) = edgeWeight (m ((c.tc : Thread nD τ).loc main_arg5)) := (W2_of_ne m ρ c main_v29 (by decide)).trans (entry_weight m ρ c)
theorem mid_arg2 : W2 m ρ c (Proc.devRef .tc main_arg2) = m ((c.tc : Thread nD τ).loc main_arg2) := (W2_of_ne m ρ c main_arg2 (by decide)).trans (entry_arg2 m ρ c)
theorem mid_arg3 : W2 m ρ c (Proc.devRef .tc main_arg3) = m ((c.tc : Thread nD τ).loc main_arg3) := (W2_of_ne m ρ c main_arg3 (by decide)).trans (entry_arg3 m ρ c)
theorem mid_arg4 : W2 m ρ c (Proc.devRef .tc main_arg4) = m ((c.tc : Thread nD τ).loc main_arg4) := (W2_of_ne m ρ c main_arg4 (by decide)).trans (entry_arg4 m ρ c)

/-! ## After the second stretch -/

theorem agg1 : W3 m ρ c (Proc.devRef .tc main_v43) = agg (proj1 (m ((c.tc : Thread nD τ).loc main_arg0)) (m ((c.tc : Thread nD τ).loc main_arg1))) (m ((c.tc : Thread nD τ).loc main_arg5)) :=
  HostLayer.agg_first (W2 m ρ c) _ _ (mid_src m ρ c) (mid_dst m ρ c) (mid_weight m ρ c) (hidden1 m ρ c)
theorem self1 : W3 m ρ c (Proc.devRef .tc main_v46) = selfTerm (proj1 (m ((c.tc : Thread nD τ).loc main_arg0)) (m ((c.tc : Thread nD τ).loc main_arg1))) (m ((c.tc : Thread nD τ).loc main_arg5)) :=
  HostLayer.self_first (W2 m ρ c) _ _ (mid_dinvSq m ρ c) (hidden1 m ρ c)
theorem bias1 : W3 m ρ c (Proc.devRef .tc main_v47) = biasRow (m ((c.tc : Thread nD τ).loc main_arg2)) :=
  HostLayer.bias_first (W2 m ρ c) _ (mid_arg2 m ρ c)

/-! ## After the first combine -/

/-- The first layer, positive part taken. -/
theorem act1 : W4 m ρ c (Proc.devRef .tc main_v48) = (relu (layer (proj1 (m ((c.tc : Thread nD τ).loc main_arg0)) (m ((c.tc : Thread nD τ).loc main_arg1))) (m ((c.tc : Thread nD τ).loc main_arg2)) (m ((c.tc : Thread nD τ).loc main_arg5)))) := by
  refine (W4_arr m ρ c 3).trans ?_
  rw [CombineValue.first_combine]
  show relu (combine (W3 m ρ c (Proc.devRef .tc main_v43)) (W3 m ρ c (Proc.devRef .tc main_v46)) (W3 m ρ c (Proc.devRef .tc main_v47))) = _
  rw [agg1, self1, bias1]
  rfl

theorem late_src : W4 m ρ c (Proc.devRef .tc main_v1) = srcIdx (m ((c.tc : Thread nD τ).loc main_arg5)) :=
  (W4_of_ne m ρ c main_v1 (by decide)).trans ((HostLayer.keeps_src_first (W2 m ρ c)).trans (mid_src m ρ c))
theorem late_dst : W4 m ρ c (Proc.devRef .tc main_v3) = dstIdx (m ((c.tc : Thread nD τ).loc main_arg5)) :=
  (W4_of_ne m ρ c main_v3 (by decide)).trans ((HostLayer.keeps_dst_first (W2 m ρ c)).trans (mid_dst m ρ c))
theorem late_dinvSq : W4 m ρ c (Proc.devRef .tc main_v14) = dinvSq (m ((c.tc : Thread nD τ).loc main_arg5)) :=
  (W4_of_ne m ρ c main_v14 (by decide)).trans ((HostLayer.keeps_dinvSq_first (W2 m ρ c)).trans (mid_dinvSq m ρ c))
theorem late_weight : W4 m ρ c (Proc.devRef .tc main_v29) = edgeWeight (m ((c.tc : Thread nD τ).loc main_arg5)) :=
  (W4_of_ne m ρ c main_v29 (by decide)).trans ((HostLayer.keeps_weight_first (W2 m ρ c)).trans (mid_weight m ρ c))
theorem late_arg3 : W4 m ρ c (Proc.devRef .tc main_arg3) = m ((c.tc : Thread nD τ).loc main_arg3) :=
  (W4_of_ne m ρ c main_arg3 (by decide)).trans ((HostLayer.keeps_arg3_first (W2 m ρ c)).trans (mid_arg3 m ρ c))
theorem late_arg4 : W4 m ρ c (Proc.devRef .tc main_arg4) = m ((c.tc : Thread nD τ).loc main_arg4) :=
  (W4_of_ne m ρ c main_arg4 (by decide)).trans ((HostLayer.keeps_arg4_first (W2 m ρ c)).trans (mid_arg4 m ρ c))

/-! ## After the second projection -/

/-- The second projection's output. -/
theorem hidden2 : W5 m ρ c (Proc.devRef .tc main_v49) = (proj2 (relu (layer (proj1 (m ((c.tc : Thread nD τ).loc main_arg0)) (m ((c.tc : Thread nD τ).loc main_arg1))) (m ((c.tc : Thread nD τ).loc main_arg2)) (m ((c.tc : Thread nD τ).loc main_arg5)))) (m ((c.tc : Thread nD τ).loc main_arg3))) := by
  refine (W5_arr m ρ c 2).trans ?_
  rw [ProjValue.second_projection]
  show proj2 (W4 m ρ c (Proc.devRef .tc main_v48)) (W4 m ρ c (Proc.devRef .tc main_arg3)) = _
  rw [act1, late_arg3]

theorem last_src : W5 m ρ c (Proc.devRef .tc main_v1) = srcIdx (m ((c.tc : Thread nD τ).loc main_arg5)) := (W5_of_ne m ρ c main_v1 (by decide)).trans (late_src m ρ c)
theorem last_dst : W5 m ρ c (Proc.devRef .tc main_v3) = dstIdx (m ((c.tc : Thread nD τ).loc main_arg5)) := (W5_of_ne m ρ c main_v3 (by decide)).trans (late_dst m ρ c)
theorem last_dinvSq : W5 m ρ c (Proc.devRef .tc main_v14) = dinvSq (m ((c.tc : Thread nD τ).loc main_arg5)) := (W5_of_ne m ρ c main_v14 (by decide)).trans (late_dinvSq m ρ c)
theorem last_weight : W5 m ρ c (Proc.devRef .tc main_v29) = edgeWeight (m ((c.tc : Thread nD τ).loc main_arg5)) := (W5_of_ne m ρ c main_v29 (by decide)).trans (late_weight m ρ c)
theorem last_arg4 : W5 m ρ c (Proc.devRef .tc main_arg4) = m ((c.tc : Thread nD τ).loc main_arg4) := (W5_of_ne m ρ c main_arg4 (by decide)).trans (late_arg4 m ρ c)

/-! ## After the last stretch -/

theorem agg2 : W6 m ρ c (Proc.devRef .tc main_v62) = agg (proj2 (relu (layer (proj1 (m ((c.tc : Thread nD τ).loc main_arg0)) (m ((c.tc : Thread nD τ).loc main_arg1))) (m ((c.tc : Thread nD τ).loc main_arg2)) (m ((c.tc : Thread nD τ).loc main_arg5)))) (m ((c.tc : Thread nD τ).loc main_arg3))) (m ((c.tc : Thread nD τ).loc main_arg5)) :=
  HostLayer.agg_second (W5 m ρ c) _ _ (last_src m ρ c) (last_dst m ρ c) (last_weight m ρ c) (hidden2 m ρ c)
theorem self2 : W6 m ρ c (Proc.devRef .tc main_v65) = selfTerm (proj2 (relu (layer (proj1 (m ((c.tc : Thread nD τ).loc main_arg0)) (m ((c.tc : Thread nD τ).loc main_arg1))) (m ((c.tc : Thread nD τ).loc main_arg2)) (m ((c.tc : Thread nD τ).loc main_arg5)))) (m ((c.tc : Thread nD τ).loc main_arg3))) (m ((c.tc : Thread nD τ).loc main_arg5)) :=
  HostLayer.self_second (W5 m ρ c) _ _ (last_dinvSq m ρ c) (hidden2 m ρ c)
theorem bias2 : W6 m ρ c (Proc.devRef .tc main_v66) = biasRow (m ((c.tc : Thread nD τ).loc main_arg4)) :=
  HostLayer.bias_second (W5 m ρ c) _ (last_arg4 m ρ c)

/-! ## The result -/

/-- After the run the result buffer holds `G` of the six arguments. -/
theorem result : W7 m ρ c (Proc.devRef .tc main_v67) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W7_arr m ρ c 3).trans ?_
  rw [CombineValue.second_combine]
  show combine (W6 m ρ c (Proc.devRef .tc main_v62)) (W6 m ρ c (Proc.devRef .tc main_v65)) (W6 m ρ c (Proc.devRef .tc main_v66)) = _
  rw [agg2, self2, bias2]
  rfl

end Cert.KernelIdeal.KernelValue

end
-- ==== Proof.lean ====
/-
  Two graph-convolution layers, computed by a kernel program and by a plain reference, are the same function of their
  arguments over the extended reals.

  The kernel program runs the two dense projections `x · W₁` and `a₁ · W₂` and the two sums `(agg + self) + bias` (the first
  followed by a maximum with zero) as tiled regions over blocks of 5000 nodes, and everything that depends on the edge list —
  the degrees, their inverse square roots, the edge weights, the gathers along the edges and the scatter-adds into the target
  nodes — as host operations around them. The reference does all of it as host operations, computing the degrees and the
  edge weights once per layer. At the exact reading of the floats a change of float format is the identity and a tiled matrix
  product into a zero accumulator is the host's matrix product, so both programs end with `G` of the six arguments
  (Proof/Spec.lean): the kernel's run by walking its segments forward (Proof/KernelValue.lean, over the regions' values in
  Proof/ProjValue.lean and Proof/CombineValue.lean and the host stretches in Proof/HostEntry.lean and Proof/HostLayer.lean),
  the reference's because each of its stages is a piece of `G` (Proof/RefIsG.lean). No law of arithmetic is needed beyond that,
  so the precondition is never opened. The idealization rewrote nothing in the kernel, so nothing is owed for it; the three
  frames are the generated ones, the reference's read off its generated run.
-/
import proofs.«113286_j54803782697391_1_alg».proof.Defs
import proofs.«113286_j54803782697391_1_alg».proof.Proof.Gen.Kernel
import proofs.«113286_j54803782697391_1_alg».proof.Proof.Gen.Kernel.Skeleton
import proofs.«113286_j54803782697391_1_alg».proof.Proof.Gen.Kernel.Launch
import proofs.«113286_j54803782697391_1_alg».proof.Proof.Gen.Kernel.Points
import proofs.«113286_j54803782697391_1_alg».proof.Proof.Gen.Kernel.Frame
import proofs.«113286_j54803782697391_1_alg».proof.Proof.Gen.KernelIdeal
import proofs.«113286_j54803782697391_1_alg».proof.Proof.Gen.KernelIdeal.Skeleton
import proofs.«113286_j54803782697391_1_alg».proof.Proof.Gen.KernelIdeal.Launch
import proofs.«113286_j54803782697391_1_alg».proof.Proof.Gen.KernelIdeal.Points
import proofs.«113286_j54803782697391_1_alg».proof.Proof.Gen.KernelIdeal.Frame
import proofs.«113286_j54803782697391_1_alg».proof.Proof.Gen.ReferenceIdeal
import proofs.«113286_j54803782697391_1_alg».proof.Proof.Gen.ReferenceIdeal.Run
import proofs.«113286_j54803782697391_1_alg».proof.Proof.Gen.ReferenceIdeal.Read
import proofs.«113286_j54803782697391_1_alg».proof.Proof.Gen.Pre_finite_inputs
import proofs.«113286_j54803782697391_1_alg».proof.Proof.Spec
import proofs.«113286_j54803782697391_1_alg».proof.Proof.RefIsG
import proofs.«113286_j54803782697391_1_alg».proof.Proof.KernelRun
import proofs.«113286_j54803782697391_1_alg».proof.Proof.KernelValue
import Idealize.ShloMosaic.Adequacy
import Idealize.ShloMosaic.Init

noncomputable section

namespace Cert.Proof

open Idealize.ShloMosaic Idealize.SL.Sem

/-- The kernel program as printed runs to the end and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with `G` of the arguments in their result buffers. -/
theorem algebraic : Cert.algebraic_KernelIdeal_ReferenceIdeal := by
  intro m ρ m' ρ' _ hagree
  refine ⟨fun c => Cert.GcnSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.result m ρ c), (h c).2⟩)
      (Cert.KernelIdeal.RunValue.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v98_eq, Cert.GcnRef.result, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
